-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 79
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S1x64, .f32⟩
  | .hbm, ⟨78, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000 : S_.BroadcastsInDim S1600000 (![] : Fin 0 → Fin S1600000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000, .f32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x128, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000, .f32⟩
  | .hbm, ⟨84, _⟩ => ⟨S1600000, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000, .f32⟩
  | .hbm, ⟨94, _⟩ => ⟨S1600000, .f32⟩
  | .hbm, ⟨95, _⟩ => ⟨S100000x64, .f32⟩
  | .hbm, ⟨96, _⟩ => ⟨S1600000x1, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x64, .f32⟩
  | .hbm, ⟨107, _⟩ => ⟨S1600000x64, .f32⟩
  | .hbm, ⟨108, _⟩ => ⟨S_, .f32⟩
  | .hbm, ⟨109, _⟩ => ⟨S100000x64, .f32⟩
  | .hbm, ⟨110, _⟩ => ⟨S1600000x1, .i32⟩
  | .hbm, ⟨111, _⟩ => ⟨S100000x64, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_13 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run with its RESULT ARRAY named.

  The program is four kernel regions (a dense product, a combine, a dense product, a combine) among three
  stretches of host operations. Its buffer contents at each boundary are a fold from the launch memory: a host
  stretch applies its operations to the contents before it, and a region replaces each of its arrays by what its
  grid's write-backs leave there. Every weakly fair execution passes through these boundaries in order, so the final
  memory holds the last boundary's contents at every buffer that outlives a region: at the result buffer that is the
  last region's output array, and at each argument it is the launch contents, since no stretch and no region writes one.
-/
import proofs.«133855_j12232066859465_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents (the fold through the three host stretches and the four regions), and the seven argument
    arrays end as launched. -/
theorem run_result : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.ReshapeForms.lean ====
/-
  A vector reshaped to a column or to a row, against the same vector broadcast into that shape.

  A vector of n entries laid out as a column [n, 1] holds entry r at (r, 0); so does its broadcast into [n, 1] along
  axis 0. Laid out as a row [1, d] it holds entry k at (0, k); so does its broadcast into [1, d] along axis 1. The
  kernel's host code makes the column of squared inverse square-root degrees and the bias row by a reshape, the
  reference by a broadcast: the arrays are equal, entry by entry.
-/
import proofs.«133855_j12232066859465_1_alg».proof.Proof.Gen.KernelIdeal
import proofs.«133855_j12232066859465_1_alg».proof.Proof.Gen.ReferenceIdeal
import Idealize.ShloMosaic.Lib.Pipeline.Value

noncomputable section

namespace Cert.KernelIdeal.ReshapeForms

open Idealize.ShloMosaic

variable {α : Type}

/-- The column of a vector of 100000 entries: the reshape and the broadcast along axis 0 both read entry r at (r, 0). -/
theorem column_eq (v : Cert.KernelIdeal.S100000.Idx → α) :
    shapeCast Cert.KernelIdeal.S100000x1 v Cert.KernelIdeal.Facts₀.shapeCasts_S100000_S100000x1
      = broadcastInDim Cert.ReferenceIdeal.S100000x1 ![0] Cert.ReferenceIdeal.Facts₀.bcast_S100000_S100000x1_0 v := by
  funext i
  have h1 : (i 1).val < 1 := (i 1).isLt
  let k : Cert.KernelIdeal.S100000.Idx := fun a => match a with | ⟨0, _⟩ => ⟨(i 0).val, (i 0).isLt⟩
  refine (shapeCast_apply v Cert.KernelIdeal.Facts₀.shapeCasts_S100000_S100000x1 i k ?_).trans
    (broadcastInDim_apply _ Cert.ReferenceIdeal.Facts₀.bcast_S100000_S100000x1_0 v i k ?_).symm
  · rewrite [Shape.rowMajor_val_one, Shape.rowMajor_val_two]
    show (i 0).val = (i 0).val * 1 + (i 1).val
    omega
  · intro a
    match a with
    | ⟨0, _⟩ => show (i 0).val = if (100000 : Nat) = 1 then 0 else (i 0).val; rw [if_neg (by decide)]

/-- The row of a vector of 128 entries: the reshape and the broadcast along axis 1 both read entry k at (0, k). -/
theorem row128_eq (v : Cert.KernelIdeal.S128.Idx → α) :
    shapeCast Cert.KernelIdeal.S1x128 v Cert.KernelIdeal.Facts₀.shapeCasts_S128_S1x128
      = broadcastInDim Cert.ReferenceIdeal.S1x128 ![1] Cert.ReferenceIdeal.Facts₀.bcast_S128_S1x128_1 v := by
  funext i
  have h0 : (i 0).val < 1 := (i 0).isLt
  let k : Cert.KernelIdeal.S128.Idx := fun a => match a with | ⟨0, _⟩ => ⟨(i 1).val, (i 1).isLt⟩
  refine (shapeCast_apply v Cert.KernelIdeal.Facts₀.shapeCasts_S128_S1x128 i k ?_).trans
    (broadcastInDim_apply _ Cert.ReferenceIdeal.Facts₀.bcast_S128_S1x128_1 v i k ?_).symm
  · rewrite [Shape.rowMajor_val_one, Shape.rowMajor_val_two]
    show (i 1).val = (i 0).val * 128 + (i 1).val
    omega
  · intro a
    match a with
    | ⟨0, _⟩ => show (i 1).val = if (128 : Nat) = 1 then 0 else (i 1).val; rw [if_neg (by decide)]

/-- The row of a vector of 64 entries: the reshape and the broadcast along axis 1 both read entry k at (0, k). -/
theorem row64_eq (v : Cert.KernelIdeal.S64.Idx → α) :
    shapeCast Cert.KernelIdeal.S1x64 v Cert.KernelIdeal.Facts₀.shapeCasts_S64_S1x64
      = broadcastInDim Cert.ReferenceIdeal.S1x64 ![1] Cert.ReferenceIdeal.Facts₀.bcast_S64_S1x64_1 v := by
  funext i
  have h0 : (i 0).val < 1 := (i 0).isLt
  let k : Cert.KernelIdeal.S64.Idx := fun a => match a with | ⟨0, _⟩ => ⟨(i 1).val, (i 1).isLt⟩
  refine (shapeCast_apply v Cert.KernelIdeal.Facts₀.shapeCasts_S64_S1x64 i k ?_).trans
    (broadcastInDim_apply _ Cert.ReferenceIdeal.Facts₀.bcast_S64_S1x64_1 v i k ?_).symm
  · rewrite [Shape.rowMajor_val_one, Shape.rowMajor_val_two]
    show (i 1).val = (i 0).val * 64 + (i 1).val
    omega
  · intro a
    match a with
    | ⟨0, _⟩ => show (i 1).val = if (64 : Nat) = 1 then 0 else (i 1).val; rw [if_neg (by decide)]

end Cert.KernelIdeal.ReshapeForms

end
-- ==== Proof.Boundaries.lean ====
/-
  The kernel program's buffers, boundary by boundary, as the reference's stages of the launch arguments.

  The program's memory passes through seven boundaries: after the first stretch of host operations (the edge rows
  and columns, the inverse square-root degrees, the edge norms), after the first dense product x·W1, after the
  second stretch (the gather of the product's rows along the edges, the weighting by the norms, the scatter-sum
  into the target nodes), after the first combine (sum + self-loop term + bias, then the maximum with zero), after
  the second dense product h·W2, after the third stretch (gather, weighting, scatter-sum at width 64) and after the
  second combine. At each boundary every buffer a later step reads is named here as a function of the seven
  argument arrays, and that function is the reference's own stage: the host operations of the two programs are the
  same operations on the same operands, a kernel region enters as the host operation it computes, the reference's
  second computation of the degrees and norms is the first one again, and a reshape to a column or a row is the
  reference's broadcast into that shape.
-/
import proofs.«133855_j12232066859465_1_alg».proof.Proof.Gen.KernelIdeal.Frame
import proofs.«133855_j12232066859465_1_alg».proof.Proof.Gen.ReferenceIdeal.Read
import proofs.«133855_j12232066859465_1_alg».proof.Proof.ReshapeForms
import Idealize.ShloMosaic.Lib.StableHlo.Run

noncomputable section

namespace Cert.KernelIdeal.Boundary

open Cert.KernelIdeal Cert.KernelIdeal.Gen Idealize.ShloMosaic Idealize.ShloMosaic.TcCoe Idealize.SL.Sem Idealize.ShloMosaic.StableHlo
open Cert.ReferenceIdeal.Read

/-- What the four kernel regions compute, each as a function of the arrays it is entered with: a dense product is
    the host's product of its two operands; a combine is (sum + column · product) + row, the column broadcast along
    each row and the row down each column, the first combine followed by the maximum with zero. -/
structure RegionValues : Prop where
  dense_first : ∀ (V : (c : Dev nD) → (b : Ref sig .tc) → Buf (Elt Ideal) ((c : Thread nD τ).loc b)) (c : Dev nD),
    (Gen.dat0 V c).arrAt 2 cfg0.N
      = Host.dotGeneral (F := Ideal) (φ₁ := .f32) (φ₂ := .f32) Cert.ReferenceIdeal.dot_S100000x128_S128x128_S100000x128_1_0_0_1_n_n none
          (V c (Pipeline.arrRef spec0 0)) (V c (Pipeline.arrRef spec0 1))
  combine_first : ∀ (V : (c : Dev nD) → (b : Ref sig .tc) → Buf (Elt Ideal) ((c : Thread nD τ).loc b)) (c : Dev nD),
    (Gen.dat1 V c).arrAt 4 cfg1.N
      = maximumf (F := Ideal)
          (addf (addf (V c (Pipeline.arrRef spec1 0))
              (mulf (broadcastInDim Cert.ReferenceIdeal.S100000x128 ![0, 1] Cert.ReferenceIdeal.Facts₀.bcast_S100000x1_S100000x128_0_1 (V c (Pipeline.arrRef spec1 2)))
                    (V c (Pipeline.arrRef spec1 1))))
            (broadcastInDim Cert.ReferenceIdeal.S100000x128 ![0, 1] Cert.ReferenceIdeal.Facts₀.bcast_S1x128_S100000x128_0_1 (V c (Pipeline.arrRef spec1 3))))
          (broadcastInDim Cert.ReferenceIdeal.S100000x128 ![] Cert.ReferenceIdeal.Facts₀.bcast_S_S100000x128 (constant (F := Ideal) Cert.ReferenceIdeal.S_ .f32 0x00000000#32))
  dense_second : ∀ (V : (c : Dev nD) → (b : Ref sig .tc) → Buf (Elt Ideal) ((c : Thread nD τ).loc b)) (c : Dev nD),
    (Gen.dat2 V c).arrAt 2 cfg2.N
      = Host.dotGeneral (F := Ideal) (φ₁ := .f32) (φ₂ := .f32) Cert.ReferenceIdeal.dot_S100000x128_S128x64_S100000x64_1_0_0_1_n_n none
          (V c (Pipeline.arrRef spec2 0)) (V c (Pipeline.arrRef spec2 1))
  combine_second : ∀ (V : (c : Dev nD) → (b : Ref sig .tc) → Buf (Elt Ideal) ((c : Thread nD τ).loc b)) (c : Dev nD),
    (Gen.dat3 V c).arrAt 4 cfg3.N
      = addf (F := Ideal) (φ := .f32) (addf (V c (Pipeline.arrRef spec3 0))
              (mulf (broadcastInDim Cert.ReferenceIdeal.S100000x64 ![0, 1] Cert.ReferenceIdeal.Facts₀.bcast_S100000x1_S100000x64_0_1 (V c (Pipeline.arrRef spec3 2)))
                    (V c (Pipeline.arrRef spec3 1))))
            (broadcastInDim Cert.ReferenceIdeal.S100000x64 ![0, 1] Cert.ReferenceIdeal.Facts₀.bcast_S1x64_S100000x64_0_1 (V c (Pipeline.arrRef spec3 3)))

variable (m : (ℓ : Loc nD τ sig) → Buf (Elt Ideal) ℓ) (ρ : Dev nD → PrngReg) (c : Dev nD)

/-- The node features x as launched. -/
abbrev a0 := m ((c.tc : Thread nD τ).loc main_arg0)
/-- The edge index (rows, then columns) as launched. -/
abbrev a1 := m ((c.tc : Thread nD τ).loc main_arg1)
/-- The edge weights as launched. -/
abbrev a2 := m ((c.tc : Thread nD τ).loc main_arg2)
/-- The first layer's weight matrix as launched. -/
abbrev a3 := m ((c.tc : Thread nD τ).loc main_arg3)
/-- The first layer's bias as launched. -/
abbrev a4 := m ((c.tc : Thread nD τ).loc main_arg4)
/-- The second layer's weight matrix as launched. -/
abbrev a5 := m ((c.tc : Thread nD τ).loc main_arg5)
/-- The second layer's bias as launched. -/
abbrev a6 := m ((c.tc : Thread nD τ).loc main_arg6)

/-! ## After the first stretch: rows, columns, norms and the squared inverse square-root degrees -/

theorem first_row : W1 m ρ c (Proc.devRef .tc main_v1) = val_main_v1 (F := Ideal) (a1 m c) := by
  show StableHlo.after hostOps0 (W0 m ρ c) (Proc.devRef .tc main_v1) = _
  after_results_simp <;> rfl
theorem first_col : W1 m ρ c (Proc.devRef .tc main_v3) = val_main_v3 (F := Ideal) (a1 m c) := by
  show StableHlo.after hostOps0 (W0 m ρ c) (Proc.devRef .tc main_v3) = _
  after_results_simp <;> rfl
/-- The edge norm dis[row] · w · dis[col], computed once by the kernel's host code. -/
theorem first_norm : W1 m ρ c (Proc.devRef .tc main_v27) = val_main_v25 (F := Ideal) (a1 m c) (a2 m c) := by
  show StableHlo.after hostOps0 (W0 m ρ c) (Proc.devRef .tc main_v27) = _
  after_results_simp <;> rfl
/-- The column of dis², made by a reshape here and by a broadcast in the reference. -/
theorem first_dis2 : W1 m ρ c (Proc.devRef .tc main_v11) = val_main_v41 (F := Ideal) (a1 m c) (a2 m c) := by
  show StableHlo.after hostOps0 (W0 m ρ c) (Proc.devRef .tc main_v11) = _
  after_results_simp
  exact ReshapeForms.column_eq (val_main_v40 (F := Ideal) (a1 m c) (a2 m c))
theorem first_arg0 : W1 m ρ c (Proc.devRef .tc main_arg0) = a0 m c := by
  show StableHlo.after hostOps0 (W0 m ρ c) (Proc.devRef .tc main_arg0) = _
  after_results_simp <;> rfl
theorem first_arg3 : W1 m ρ c (Proc.devRef .tc main_arg3) = a3 m c := by
  show StableHlo.after hostOps0 (W0 m ρ c) (Proc.devRef .tc main_arg3) = _
  after_results_simp <;> rfl
theorem first_arg4 : W1 m ρ c (Proc.devRef .tc main_arg4) = a4 m c := by
  show StableHlo.after hostOps0 (W0 m ρ c) (Proc.devRef .tc main_arg4) = _
  after_results_simp <;> rfl
theorem first_arg5 : W1 m ρ c (Proc.devRef .tc main_arg5) = a5 m c := by
  show StableHlo.after hostOps0 (W0 m ρ c) (Proc.devRef .tc main_arg5) = _
  after_results_simp <;> rfl
theorem first_arg6 : W1 m ρ c (Proc.devRef .tc main_arg6) = a6 m c := by
  show StableHlo.after hostOps0 (W0 m ρ c) (Proc.devRef .tc main_arg6) = _
  after_results_simp <;> rfl

/-! ## After the first dense product: x · W1, everything else kept -/

theorem second_row : W2 m ρ c (Proc.devRef .tc main_v1) = val_main_v1 (F := Ideal) (a1 m c) :=
  (W2_of_ne m ρ c main_v1 (by decide)).trans (first_row m ρ c)
theorem second_col : W2 m ρ c (Proc.devRef .tc main_v3) = val_main_v3 (F := Ideal) (a1 m c) :=
  (W2_of_ne m ρ c main_v3 (by decide)).trans (first_col m ρ c)
theorem second_norm : W2 m ρ c (Proc.devRef .tc main_v27) = val_main_v25 (F := Ideal) (a1 m c) (a2 m c) :=
  (W2_of_ne m ρ c main_v27 (by decide)).trans (first_norm m ρ c)
theorem second_dis2 : W2 m ρ c (Proc.devRef .tc main_v11) = val_main_v41 (F := Ideal) (a1 m c) (a2 m c) :=
  (W2_of_ne m ρ c main_v11 (by decide)).trans (first_dis2 m ρ c)
theorem second_arg4 : W2 m ρ c (Proc.devRef .tc main_arg4) = a4 m c :=
  (W2_of_ne m ρ c main_arg4 (by decide)).trans (first_arg4 m ρ c)
theorem second_arg5 : W2 m ρ c (Proc.devRef .tc main_arg5) = a5 m c :=
  (W2_of_ne m ρ c main_arg5 (by decide)).trans (first_arg5 m ρ c)
theorem second_arg6 : W2 m ρ c (Proc.devRef .tc main_arg6) = a6 m c :=
  (W2_of_ne m ρ c main_arg6 (by decide)).trans (first_arg6 m ρ c)
/-- The first region's output is the reference's x · W1. -/
theorem second_xw (hR : RegionValues) : W2 m ρ c (Proc.devRef .tc main_v28) = val_main_v26 (F := Ideal) (a0 m c) (a3 m c) := by
  refine (W2_arr m ρ c 2).trans ((hR.dense_first (V1 m ρ) c).trans ?_)
  have e0 : V1 m ρ c (Pipeline.arrRef spec0 0) = a0 m c := first_arg0 m ρ c
  have e1 : V1 m ρ c (Pipeline.arrRef spec0 1) = a3 m c := first_arg3 m ρ c
  rw [e0, e1]
  rfl

/-! ## After the second stretch: the first layer's messages summed into their target nodes -/

theorem third_row : W3 m ρ c (Proc.devRef .tc main_v1) = val_main_v1 (F := Ideal) (a1 m c) := by
  show StableHlo.after hostOps1 (W2 m ρ c) (Proc.devRef .tc main_v1) = _
  after_results_simp
  exact second_row m ρ c
theorem third_col : W3 m ρ c (Proc.devRef .tc main_v3) = val_main_v3 (F := Ideal) (a1 m c) := by
  show StableHlo.after hostOps1 (W2 m ρ c) (Proc.devRef .tc main_v3) = _
  after_results_simp
  exact second_col m ρ c
theorem third_norm : W3 m ρ c (Proc.devRef .tc main_v27) = val_main_v25 (F := Ideal) (a1 m c) (a2 m c) := by
  show StableHlo.after hostOps1 (W2 m ρ c) (Proc.devRef .tc main_v27) = _
  after_results_simp
  exact second_norm m ρ c
theorem third_dis2 : W3 m ρ c (Proc.devRef .tc main_v11) = val_main_v41 (F := Ideal) (a1 m c) (a2 m c) := by
  show StableHlo.after hostOps1 (W2 m ρ c) (Proc.devRef .tc main_v11) = _
  after_results_simp
  exact second_dis2 m ρ c
theorem third_arg5 : W3 m ρ c (Proc.devRef .tc main_arg5) = a5 m c := by
  show StableHlo.after hostOps1 (W2 m ρ c) (Proc.devRef .tc main_arg5) = _
  after_results_simp
  exact second_arg5 m ρ c
theorem third_arg6 : W3 m ρ c (Proc.devRef .tc main_arg6) = a6 m c := by
  show StableHlo.after hostOps1 (W2 m ρ c) (Proc.devRef .tc main_arg6) = _
  after_results_simp
  exact second_arg6 m ρ c
theorem third_xw (hR : RegionValues) : W3 m ρ c (Proc.devRef .tc main_v28) = val_main_v26 (F := Ideal) (a0 m c) (a3 m c) := by
  show StableHlo.after hostOps1 (W2 m ρ c) (Proc.devRef .tc main_v28) = _
  after_results_simp
  exact second_xw m ρ c hR
/-- The bias row, made by a reshape here and by a broadcast in the reference. -/
theorem third_bias : W3 m ρ c (Proc.devRef .tc main_v42) = val_main_v45 (F := Ideal) (a4 m c) := by
  show StableHlo.after hostOps1 (W2 m ρ c) (Proc.devRef .tc main_v42) = _
  after_results_simp
  rw [second_arg4 m ρ c]
  exact ReshapeForms.row128_eq (a4 m c)
/-- The scatter-sum over the edges of norm · (x·W1)[row] into the nodes col: the reference's aggregation. -/
theorem third_agg (hR : RegionValues) :
    W3 m ρ c (Proc.devRef .tc main_v41) = val_main_v39 (F := Ideal) (a0 m c) (a1 m c) (a2 m c) (a3 m c) := by
  show StableHlo.after hostOps1 (W2 m ρ c) (Proc.devRef .tc main_v41) = _
  after_results_simp
  rw [second_xw m ρ c hR, second_row m ρ c, second_col m ρ c, second_norm m ρ c]
  rfl

/-! ## After the first combine: the hidden layer -/

theorem fourth_row : W4 m ρ c (Proc.devRef .tc main_v1) = val_main_v1 (F := Ideal) (a1 m c) :=
  (W4_of_ne m ρ c main_v1 (by decide)).trans (third_row m ρ c)
theorem fourth_col : W4 m ρ c (Proc.devRef .tc main_v3) = val_main_v3 (F := Ideal) (a1 m c) :=
  (W4_of_ne m ρ c main_v3 (by decide)).trans (third_col m ρ c)
theorem fourth_norm : W4 m ρ c (Proc.devRef .tc main_v27) = val_main_v25 (F := Ideal) (a1 m c) (a2 m c) :=
  (W4_of_ne m ρ c main_v27 (by decide)).trans (third_norm m ρ c)
theorem fourth_arg5 : W4 m ρ c (Proc.devRef .tc main_arg5) = a5 m c :=
  (W4_of_ne m ρ c main_arg5 (by decide)).trans (third_arg5 m ρ c)
theorem fourth_arg6 : W4 m ρ c (Proc.devRef .tc main_arg6) = a6 m c :=
  (W4_of_ne m ρ c main_arg6 (by decide)).trans (third_arg6 m ρ c)
/-- The column of dis² is one of the first combine's own arrays, read and left as entered. -/
theorem fourth_dis2 : W4 m ρ c (Proc.devRef .tc main_v11) = val_main_v41 (F := Ideal) (a1 m c) (a2 m c) :=
  ((W4_arr m ρ c 2).trans (((dat1 (V3 m ρ) c).arrAt_in 2 rfl _).trans (A_eq1 (V3 m ρ) c 2))).trans (third_dis2 m ρ c)
/-- The second region's output is the reference's hidden layer relu((agg + dis² · xw) + b1). -/
theorem fourth_hidden (hR : RegionValues) :
    W4 m ρ c (Proc.devRef .tc main_v43) = val_main_v48 (F := Ideal) (a0 m c) (a1 m c) (a2 m c) (a3 m c) (a4 m c) := by
  refine (W4_arr m ρ c 4).trans ((hR.combine_first (V3 m ρ) c).trans ?_)
  have e0 : V3 m ρ c (Pipeline.arrRef spec1 0) = val_main_v39 (F := Ideal) (a0 m c) (a1 m c) (a2 m c) (a3 m c) := third_agg m ρ c hR
  have e1 : V3 m ρ c (Pipeline.arrRef spec1 1) = val_main_v26 (F := Ideal) (a0 m c) (a3 m c) := third_xw m ρ c hR
  have e2 : V3 m ρ c (Pipeline.arrRef spec1 2) = val_main_v41 (F := Ideal) (a1 m c) (a2 m c) := third_dis2 m ρ c
  have e3 : V3 m ρ c (Pipeline.arrRef spec1 3) = val_main_v45 (F := Ideal) (a4 m c) := third_bias m ρ c
  rw [e0, e1, e2, e3]
  rfl

/-! ## After the second dense product: h · W2 -/

theorem fifth_row : W5 m ρ c (Proc.devRef .tc main_v1) = val_main_v1 (F := Ideal) (a1 m c) :=
  (W5_of_ne m ρ c main_v1 (by decide)).trans (fourth_row m ρ c)
theorem fifth_col : W5 m ρ c (Proc.devRef .tc main_v3) = val_main_v3 (F := Ideal) (a1 m c) :=
  (W5_of_ne m ρ c main_v3 (by decide)).trans (fourth_col m ρ c)
theorem fifth_norm : W5 m ρ c (Proc.devRef .tc main_v27) = val_main_v25 (F := Ideal) (a1 m c) (a2 m c) :=
  (W5_of_ne m ρ c main_v27 (by decide)).trans (fourth_norm m ρ c)
theorem fifth_dis2 : W5 m ρ c (Proc.devRef .tc main_v11) = val_main_v41 (F := Ideal) (a1 m c) (a2 m c) :=
  (W5_of_ne m ρ c main_v11 (by decide)).trans (fourth_dis2 m ρ c)
theorem fifth_arg6 : W5 m ρ c (Proc.devRef .tc main_arg6) = a6 m c :=
  (W5_of_ne m ρ c main_arg6 (by decide)).trans (fourth_arg6 m ρ c)
/-- The third region's output is the reference's h · W2. -/
theorem fifth_xw (hR : RegionValues) :
    W5 m ρ c (Proc.devRef .tc main_v44) = val_main_v71 (F := Ideal) (a0 m c) (a1 m c) (a2 m c) (a3 m c) (a4 m c) (a5 m c) := by
  refine (W5_arr m ρ c 2).trans ((hR.dense_second (V4 m ρ) c).trans ?_)
  have e0 : V4 m ρ c (Pipeline.arrRef spec2 0) = val_main_v48 (F := Ideal) (a0 m c) (a1 m c) (a2 m c) (a3 m c) (a4 m c) := fourth_hidden m ρ c hR
  have e1 : V4 m ρ c (Pipeline.arrRef spec2 1) = a5 m c := fourth_arg5 m ρ c
  rw [e0, e1]
  rfl

/-! ## After the third stretch: the second layer's messages summed into their target nodes -/

theorem sixth_xw (hR : RegionValues) :
    W6 m ρ c (Proc.devRef .tc main_v44) = val_main_v71 (F := Ideal) (a0 m c) (a1 m c) (a2 m c) (a3 m c) (a4 m c) (a5 m c) := by
  show StableHlo.after hostOps3 (W5 m ρ c) (Proc.devRef .tc main_v44) = _
  after_results_simp
  exact fifth_xw m ρ c hR
/-- The column of dis²: the reference computes the degrees a second time, to the same array. -/
theorem sixth_dis2 : W6 m ρ c (Proc.devRef .tc main_v11) = val_main_v86 (F := Ideal) (a1 m c) (a2 m c) := by
  show StableHlo.after hostOps3 (W5 m ρ c) (Proc.devRef .tc main_v11) = _
  after_results_simp
  exact (fifth_dis2 m ρ c).trans rfl
theorem sixth_bias : W6 m ρ c (Proc.devRef .tc main_v58) = val_main_v90 (F := Ideal) (a6 m c) := by
  show StableHlo.after hostOps3 (W5 m ρ c) (Proc.devRef .tc main_v58) = _
  after_results_simp
  rw [fifth_arg6 m ρ c]
  exact ReshapeForms.row64_eq (a6 m c)
/-- The scatter-sum over the edges of norm · (h·W2)[row] into the nodes col; the reference's second computation of
    the norms is the first one again. -/
theorem sixth_agg (hR : RegionValues) :
    W6 m ρ c (Proc.devRef .tc main_v57) = val_main_v84 (F := Ideal) (a0 m c) (a1 m c) (a2 m c) (a3 m c) (a4 m c) (a5 m c) := by
  show StableHlo.after hostOps3 (W5 m ρ c) (Proc.devRef .tc main_v57) = _
  after_results_simp
  rw [fifth_xw m ρ c hR, fifth_row m ρ c, fifth_col m ρ c, fifth_norm m ρ c]
  rfl

/-! ## After the second combine: the result -/

/-- The last region's output, the program's result, is the reference's (agg₂ + dis² · hw) + b2. -/
theorem seventh_out (hR : RegionValues) :
    W7 m ρ c (Proc.devRef .tc main_v59)
      = val_main_v92 (F := Ideal) (a0 m c) (a1 m c) (a2 m c) (a3 m c) (a4 m c) (a5 m c) (a6 m c) := by
  refine (W7_arr m ρ c 4).trans ((hR.combine_second (V6 m ρ) c).trans ?_)
  have e0 : V6 m ρ c (Pipeline.arrRef spec3 0) = val_main_v84 (F := Ideal) (a0 m c) (a1 m c) (a2 m c) (a3 m c) (a4 m c) (a5 m c) := sixth_agg m ρ c hR
  have e1 : V6 m ρ c (Pipeline.arrRef spec3 1) = val_main_v71 (F := Ideal) (a0 m c) (a1 m c) (a2 m c) (a3 m c) (a4 m c) (a5 m c) := sixth_xw m ρ c hR
  have e2 : V6 m ρ c (Pipeline.arrRef spec3 2) = val_main_v86 (F := Ideal) (a1 m c) (a2 m c) := sixth_dis2 m ρ c
  have e3 : V6 m ρ c (Pipeline.arrRef spec3 3) = val_main_v90 (F := Ideal) (a6 m c) := sixth_bias m ρ c
  rw [e0, e1, e2, e3]
  rfl

end Cert.KernelIdeal.Boundary

end
-- ==== Proof.DenseFirst.lean ====
/-
  The first dense product, as one array.

  The region runs over 50 grid points. At point t it reads rows 2000·t … 2000·t + 1999 of the left array
  (100000 × 128) and the whole right array (128 × 128), and writes rows 2000·t … 2000·t + 1999 of the output
  (100000 × 128): entry (r, q) of the written block is the sum over k < 128 of left (r, k) · right (k, q), an exact
  sum of extended reals (the change of format before the product is the identity there, and the product accumulates
  onto zero). The 50 row blocks tile the output, so after the region the output array is the product of the two
  arrays the region was entered with: entry (i, q) is the sum over k of left (i, k) · right (k, q), which is what the
  host's dot_general of the two arrays is at that entry.
-/
import proofs.«133855_j12232066859465_1_alg».proof.Proof.Gen.KernelIdeal.Frame
import proofs.«133855_j12232066859465_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.DenseFirst

open Cert.KernelIdeal Cert.KernelIdeal.Gen Idealize.ShloMosaic Idealize.ShloMosaic.TcCoe Idealize.SL.Sem

/-- A block is read and written from its corner: the offset (0, 0) is the zero offset. -/
theorem zero_offset : (![0, 0] : Fin 2 → Nat) = fun _ => 0 := funext fun a => by fin_cases a <;> rfl

/-! ## One block: entry (r, q) is the sum over k of left (r, k) · right (k, q) -/

/-- The left factor of term k of entry j = (r, q) of a block: entry (r, k) of the 2000 × 128 left block. -/
abbrev lhsAt (j : S2000x128.Idx) (k : Fin 128) : S2000x128.Idx := fun a => match a with
  | ⟨0, _⟩ => ⟨(j 0).val, (j 0).isLt⟩
  | ⟨1, _⟩ => ⟨k.val, k.isLt⟩
/-- The right factor of term k of entry j = (r, q): entry (k, q) of the 128 × 128 right array. -/
abbrev rhsAt (j : S2000x128.Idx) (k : Fin 128) : S128x128.Idx := fun a => match a with
  | ⟨0, _⟩ => ⟨k.val, k.isLt⟩
  | ⟨1, _⟩ => ⟨(j 1).val, (j 1).isLt⟩

/-- The product's left operand index at output entry j keeps j's row (axis 0 is not contracted), -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and takes the contraction index as its column (axis 1 is the one contracted axis); -/
theorem lhs_contr (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- the right operand index takes the contraction index as its row (axis 0 is the one contracted axis), -/
theorem rhs_contr (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- and keeps j's column (axis 1 is not contracted). -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- WHAT THE BODY COMPUTES, entry by entry: the product of the two loaded blocks accumulated onto zero, with the
    one-axis contraction index read as k < 128; the two changes of format are the identity on extended reals. -/
theorem payload_apply (x0 : Vec Ideal S2000x128 .f32) (x1 : Vec Ideal S128x128 .f32) (j : S2000x128.Idx) :
    Gen.k0_pay1 x0 x1 j = ∑ k : Fin 128, x0 (lhsAt j k) * x1 (rhsAt j k) := by
  unfold Gen.k0_pay1
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lhsAt j k := funext fun a => Fin.ext (by
    match a with
    | ⟨0, _⟩ => exact lhs_row _ _
    | ⟨1, _⟩ => exact (lhs_contr _ _).trans hk)
  have er : dot_S2000x128_S128x128_S2000x128_1_0_0_1_n_n.rhsIdx j ((ValueIdx.contrEquiv1 dot_S2000x128_S128x128_S2000x128_1_0_0_1_n_n 128 rfl rfl).symm k) = rhsAt j k := funext fun a => Fin.ext (by
    match a with
    | ⟨0, _⟩ => exact (rhs_contr _ _).trans hk
    | ⟨1, _⟩ => exact rhs_col _ _)
  rw [el, er]
  rfl

/-! ## The whole array: the host's product of the two arrays, entry by entry -/

/-- Entry i = (r, q) of the host's dot_general of a (100000 × 128) and b (128 × 128): the sum over k < 128 of
    a (r, k) · b (k, q). -/
theorem product_apply (a : FVec Ideal Cert.ReferenceIdeal.S100000x128 .f32) (b : FVec Ideal Cert.ReferenceIdeal.S128x128 .f32)
    (i : Cert.ReferenceIdeal.S100000x128.Idx) :
    Host.dotGeneral (F := Ideal) (φ₁ := .f32) (φ₂ := .f32) Cert.ReferenceIdeal.dot_S100000x128_S128x128_S100000x128_1_0_0_1_n_n none a b i
      = ∑ k : Fin 128, a (Cert.ReferenceIdeal.Read.lidx_main_v26 i k) * b (Cert.ReferenceIdeal.Read.ridx_main_v26 i k) :=
  Cert.ReferenceIdeal.Read.val_main_v26_apply a b i

/-- A block entry IS an array entry: when the left block's row of entry j is the row of a that array entry i reads
    (h0) and the right block's column of j is the column of b that i reads (h1), the body's entry j is the host
    product's entry i — both are the same sum over k, term by term. -/
theorem block_product (a : FVec Ideal Cert.ReferenceIdeal.S100000x128 .f32) (b : FVec Ideal Cert.ReferenceIdeal.S128x128 .f32)
    (x0 : Vec Ideal S2000x128 .f32) (x1 : Vec Ideal S128x128 .f32) (j : S2000x128.Idx) (i : Cert.ReferenceIdeal.S100000x128.Idx)
    (h0 : ∀ k : Fin 128, x0 (lhsAt j k) = a (Cert.ReferenceIdeal.Read.lidx_main_v26 i k))
    (h1 : ∀ k : Fin 128, x1 (rhsAt j k) = b (Cert.ReferenceIdeal.Read.ridx_main_v26 i k)) :
    Gen.k0_pay1 x0 x1 j
      = Host.dotGeneral (F := Ideal) (φ₁ := .f32) (φ₂ := .f32) Cert.ReferenceIdeal.dot_S100000x128_S128x128_S100000x128_1_0_0_1_n_n none a b i :=
  (payload_apply x0 x1 j).trans ((Finset.sum_congr rfl fun k _ => by rw [h0 k, h1 k]).trans (product_apply a b i).symm)

/-! ## From blocks to the array -/

/-- The block index maps over the 50 grid points: the left operand's and the output's row block is the grid
    coordinate and their column block is 0; the right operand's block is always (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the host product of the two entry arrays. Entry j = (r, q) of the written
    block sits at array entry (2000·t + r, q); the left block's entry (r, k) is the left array's entry
    (2000·t + r, k), and the right block is the right array. -/
theorem flushed_eq (V : (c : Dev nD) → (b : Ref sig .tc) → Buf (Elt Ideal) ((c : Thread nD τ).loc b)) (c : Dev nD) (t : Fin cfg0.N) :
    (Gen.dat0 V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none
          (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zero_offset]
  simp only [View.ld_unit_zero (S := S2000x128) zero_offset, View.ld_unit_zero (S := S128x128) zero_offset]
  obtain ⟨e0, e1, e2, e3, e4, e5⟩ := index_facts t
  funext j
  refine block_product (V c (Pipeline.arrRef spec0 0)) (V c (Pipeline.arrRef spec0 1)) (iblk0 V c 0 t) (iblk0 V c 1 t) j
    (((cfg0.win 2).blk t).view.emb j) (fun k => ?_) (fun k => ?_)
  · -- the left block's entry (r, k) and the left array's entry (row of the output entry, k): the same place
    show V c (Pipeline.arrRef spec0 0) (((cfg0.win 0).blk t).view.emb (lhsAt j k))
      = V c (Pipeline.arrRef spec0 0) (Cert.ReferenceIdeal.Read.lidx_main_v26 (((cfg0.win 2).blk t).view.emb j) k)
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · -- the right block's entry (k, q) and the right array's entry (k, column of the output entry): the same place
    show V c (Pipeline.arrRef spec0 1) (((cfg0.win 1).blk t).view.emb (rhsAt j k))
      = V c (Pipeline.arrRef spec0 1) (Cert.ReferenceIdeal.Read.ridx_main_v26 (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An array entry is in point t's output block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- The 50 row blocks tile the output: row r lies in the block of point r / 2000 (100000 = 50 · 2000), every column
    in column block 0 (128 columns). -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by have hN : grid0.N = 50 := N_0; show (i 0).val / 2000 < grid0.N; omega⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE OUTPUT ARRAY after the region is the host's dot_general of the two arrays the region is entered with: every
    point writes its block of that product, and the blocks cover the array. -/
theorem dense_first (V : (c : Dev nD) → (b : Ref sig .tc) → Buf (Elt Ideal) ((c : Thread nD τ).loc b)) (c : Dev nD) :
    (Gen.dat0 V c).arrAt 2 cfg0.N
      = Host.dotGeneral (F := Ideal) (φ₁ := .f32) (φ₂ := .f32) Cert.ReferenceIdeal.dot_S100000x128_S128x128_S100000x128_1_0_0_1_n_n none
          (V c (Pipeline.arrRef spec0 0)) (V c (Pipeline.arrRef spec0 1)) :=
  (Gen.dat0 V c).arrAt_eq_of_cover 2 _ (fun t _ => flushed_eq V c t) covered

end Cert.KernelIdeal.DenseFirst

end
-- ==== Proof.DenseSecond.lean ====
/-
  The second dense product, as one array.

  The region runs over 50 grid points. At point t it reads rows 2000·t … 2000·t + 1999 of the left array
  (100000 × 128) and the whole right array (128 × 64), and writes rows 2000·t … 2000·t + 1999 of the output
  (100000 × 64): entry (r, q) of the written block is the sum over k < 128 of left (r, k) · right (k, q), an exact
  sum of extended reals (the cast of the left block to its own shape and the change of format before the product
  are the identity, and the product accumulates onto zero). The 50 row blocks tile the output, so after the region
  the output array is the product of the two arrays the region was entered with: entry (i, q) is the sum over k of
  left (i, k) · right (k, q), which is what the host's dot_general of the two arrays is at that entry.
-/
import proofs.«133855_j12232066859465_1_alg».proof.Proof.Gen.KernelIdeal.Frame
import proofs.«133855_j12232066859465_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.DenseSecond

open Cert.KernelIdeal Cert.KernelIdeal.Gen Idealize.ShloMosaic Idealize.ShloMosaic.TcCoe Idealize.SL.Sem

/-- A block is read and written from its corner: the offset (0, 0) is the zero offset. -/
theorem zero_offset : (![0, 0] : Fin 2 → Nat) = fun _ => 0 := funext fun a => by fin_cases a <;> rfl

/-! ## One block: entry (r, q) is the sum over k of left (r, k) · right (k, q) -/

/-- The left factor of term k of entry j = (r, q) of a block: entry (r, k) of the 2000 × 128 left block. -/
abbrev lhsAt (j : S2000x64.Idx) (k : Fin 128) : S2000x128.Idx := fun a => match a with
  | ⟨0, _⟩ => ⟨(j 0).val, (j 0).isLt⟩
  | ⟨1, _⟩ => ⟨k.val, k.isLt⟩
/-- The right factor of term k of entry j = (r, q): entry (k, q) of the 128 × 64 right array. -/
abbrev rhsAt (j : S2000x64.Idx) (k : Fin 128) : S128x64.Idx := fun a => match a with
  | ⟨0, _⟩ => ⟨k.val, k.isLt⟩
  | ⟨1, _⟩ => ⟨(j 1).val, (j 1).isLt⟩

/-- The product's left operand index at output entry j keeps j's row (axis 0 is not contracted), -/
theorem lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- and takes the contraction index as its column (axis 1 is the one contracted axis); -/
theorem lhs_contr (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
/-- the right operand index takes the contraction index as its row (axis 0 is the one contracted axis), -/
theorem rhs_contr (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
/-- and keeps j's column (axis 1 is not contracted). -/
theorem rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- WHAT THE BODY COMPUTES, entry by entry: the product of the two loaded blocks accumulated onto zero, with the
    one-axis contraction index read as k < 128; the cast of the left block to its own shape and the two changes of
    format are the identity. -/
theorem payload_apply (x0 : Vec Ideal S2000x128 .f32) (x1 : Vec Ideal S128x64 .f32) (j : S2000x64.Idx) :
    Gen.k2_pay1 x0 x1 j = ∑ k : Fin 128, x0 (lhsAt j k) * x1 (rhsAt j k) := by
  unfold Gen.k2_pay1
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lhsAt j k := funext fun a => Fin.ext (by
    match a with
    | ⟨0, _⟩ => exact lhs_row _ _
    | ⟨1, _⟩ => exact (lhs_contr _ _).trans hk)
  have er : dot_S2000x128_S128x64_S2000x64_1_0_0_1_n_n.rhsIdx j ((ValueIdx.contrEquiv1 dot_S2000x128_S128x64_S2000x64_1_0_0_1_n_n 128 rfl rfl).symm k) = rhsAt j k := funext fun a => Fin.ext (by
    match a with
    | ⟨0, _⟩ => exact (rhs_contr _ _).trans hk
    | ⟨1, _⟩ => exact rhs_col _ _)
  rw [el, er]
  exact congrArg (· * x1 (rhsAt j k)) (congrFun (shapeCast_self x0 _) (lhsAt j k))

/-! ## The whole array: the host's product of the two arrays, entry by entry -/

/-- Entry i = (r, q) of the host's dot_general of a (100000 × 128) and b (128 × 64): the sum over k < 128 of
    a (r, k) · b (k, q) — the contraction onto zero, its one-axis contraction index read as k < 128, the operand
    indices computed from the dimension numbers (left: row kept, column contracted; right: row contracted, column kept). -/
theorem product_apply (a : FVec Ideal Cert.ReferenceIdeal.S100000x128 .f32) (b : FVec Ideal Cert.ReferenceIdeal.S128x64 .f32)
    (i : Cert.ReferenceIdeal.S100000x64.Idx) :
    Host.dotGeneral (F := Ideal) (φ₁ := .f32) (φ₂ := .f32) Cert.ReferenceIdeal.dot_S100000x128_S128x64_S100000x64_1_0_0_1_n_n none a b i
      = ∑ k : Fin 128, a (Cert.ReferenceIdeal.Read.lidx_main_v71 i k) * b (Cert.ReferenceIdeal.Read.ridx_main_v71 i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = Cert.ReferenceIdeal.Read.lidx_main_v71 i k := funext fun ax => Fin.ext (by
    match ax with
    | ⟨0, _⟩ => exact Cert.ReferenceIdeal.Read.lhs_main_v71_0 _ _
    | ⟨1, _⟩ => exact (Cert.ReferenceIdeal.Read.lhs_main_v71_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = Cert.ReferenceIdeal.Read.ridx_main_v71 i k := funext fun ax => Fin.ext (by
    match ax with
    | ⟨0, _⟩ => exact (Cert.ReferenceIdeal.Read.rhs_main_v71_0 _ _).trans hk
    | ⟨1, _⟩ => exact Cert.ReferenceIdeal.Read.rhs_main_v71_1 _ _)
  rw [el, er]

/-- A block entry IS an array entry: when the left block's row of entry j is the row of a that array entry i reads
    (h0) and the right block's column of j is the column of b that i reads (h1), the body's entry j is the host
    product's entry i — both are the same sum over k, term by term. -/
theorem block_product (a : FVec Ideal Cert.ReferenceIdeal.S100000x128 .f32) (b : FVec Ideal Cert.ReferenceIdeal.S128x64 .f32)
    (x0 : Vec Ideal S2000x128 .f32) (x1 : Vec Ideal S128x64 .f32) (j : S2000x64.Idx) (i : Cert.ReferenceIdeal.S100000x64.Idx)
    (h0 : ∀ k : Fin 128, x0 (lhsAt j k) = a (Cert.ReferenceIdeal.Read.lidx_main_v71 i k))
    (h1 : ∀ k : Fin 128, x1 (rhsAt j k) = b (Cert.ReferenceIdeal.Read.ridx_main_v71 i k)) :
    Gen.k2_pay1 x0 x1 j
      = Host.dotGeneral (F := Ideal) (φ₁ := .f32) (φ₂ := .f32) Cert.ReferenceIdeal.dot_S100000x128_S128x64_S100000x64_1_0_0_1_n_n none a b i :=
  (payload_apply x0 x1 j).trans ((Finset.sum_congr rfl fun k _ => by rw [h0 k, h1 k]).trans (product_apply a b i).symm)

/-! ## From blocks to the array -/

/-- The block index maps over the 50 grid points: the left operand's and the output's row block is the grid
    coordinate and their column block is 0; the right operand's block is always (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the host product of the two entry arrays. Entry j = (r, q) of the written
    block sits at array entry (2000·t + r, q); the left block's entry (r, k) is the left array's entry
    (2000·t + r, k), and the right block is the right array. -/
theorem flushed_eq (V : (c : Dev nD) → (b : Ref sig .tc) → Buf (Elt Ideal) ((c : Thread nD τ).loc b)) (c : Dev nD) (t : Fin cfg2.N) :
    (Gen.dat2 V c).flushed 2 t = ((cfg2.win 2).blk t).view.read (Elt Ideal)
      (Host.dotGeneral (F := Ideal) (φ₁ := .f32) (φ₂ := .f32) Cert.ReferenceIdeal.dot_S100000x128_S128x64_S100000x64_1_0_0_1_n_n none
          (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero zero_offset]
  simp only [View.ld_unit_zero (S := S2000x128) zero_offset, View.ld_unit_zero (S := S128x64) zero_offset]
  obtain ⟨e0, e1, e2, e3, e4, e5⟩ := index_facts t
  funext j
  refine block_product (V c (Pipeline.arrRef spec2 0)) (V c (Pipeline.arrRef spec2 1)) (iblk2 V c 0 t) (iblk2 V c 1 t) j
    (((cfg2.win 2).blk t).view.emb j) (fun k => ?_) (fun k => ?_)
  · -- the left block's entry (r, k) and the left array's entry (row of the output entry, k): the same place
    show V c (Pipeline.arrRef spec2 0) (((cfg2.win 0).blk t).view.emb (lhsAt j k))
      = V c (Pipeline.arrRef spec2 0) (Cert.ReferenceIdeal.Read.lidx_main_v71 (((cfg2.win 2).blk t).view.emb j) k)
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · -- the right block's entry (k, q) and the right array's entry (k, column of the output entry): the same place
    show V c (Pipeline.arrRef spec2 1) (((cfg2.win 1).blk t).view.emb (rhsAt j k))
      = V c (Pipeline.arrRef spec2 1) (Cert.ReferenceIdeal.Read.ridx_main_v71 (((cfg2.win 2).blk t).view.emb j) k)
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An array entry is in point t's output block iff each coordinate is in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v44).slice (win2_2.rect t)).set ↔ _
  rw [View.set_slice_whole, Rect.mem_set_unit]
  exact Iff.rfl

/-- The 50 row blocks tile the output: row r lies in the block of point r / 2000 (100000 = 50 · 2000), every column
    in column block 0 (64 columns). -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, by have hN : grid2.N = 50 := N_2; show (i 0).val / 2000 < grid2.N; omega⟩, rfl⟩
  obtain ⟨e0, e1, e2, e3, e4, e5⟩ := index_facts t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- THE OUTPUT ARRAY after the region is the host's dot_general of the two arrays the region is entered with: every
    point writes its block of that product, and the blocks cover the array. -/
theorem dense_second (V : (c : Dev nD) → (b : Ref sig .tc) → Buf (Elt Ideal) ((c : Thread nD τ).loc b)) (c : Dev nD) :
    (Gen.dat2 V c).arrAt 2 cfg2.N
      = Host.dotGeneral (F := Ideal) (φ₁ := .f32) (φ₂ := .f32) Cert.ReferenceIdeal.dot_S100000x128_S128x64_S100000x64_1_0_0_1_n_n none
          (V c (Pipeline.arrRef spec2 0)) (V c (Pipeline.arrRef spec2 1)) :=
  (Gen.dat2 V c).arrAt_eq_of_cover 2 _ (fun t _ => flushed_eq V c t) covered

end Cert.KernelIdeal.DenseSecond

end
-- ==== Proof.CombineFirst.lean ====
/- The first combine region's whole output array.

   The region's grid has 50 points; point `t` reads rows `2000 t … 2000 t + 1999` of the aggregate `agg` and of the
   product `xw` (both [100000, 128]), the same rows of the column `dis` ([100000, 1]), the whole bias row `b` ([1, 128]), and
   writes rows `2000 t … 2000 t + 1999` of the output. Entry `(r, k)` of what it writes is
   `max ((agg (r, k) + dis (r, 0) · xw (r, k)) + b (0, k)) 0`: it depends on one entry of each of the four arrays, so the 50
   written blocks are the blocks of ONE function of the four arrays, and they tile the output. That function is stated with
   the host's own broadcast operations; read at an index it is the expression above. -/
import proofs.«133855_j12232066859465_1_alg».proof.Proof.Gen.KernelIdeal.Frame
import proofs.«133855_j12232066859465_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CombineFirst

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function and its entries -/

/-- The output as one function of the four entry arrays: `max ((agg + dis · xw) + b) 0`, the column `dis` and the row `b`
    broadcast to the full shape, the zero broadcast from a scalar. -/
abbrev combined (agg xw : S100000x128.Idx → EReal) (dis : S100000x1.Idx → EReal) (b : S1x128.Idx → EReal) :
    S100000x128.Idx → EReal :=
  maximumf (F := Ideal)
    (addf (addf agg
        (mulf (broadcastInDim Cert.ReferenceIdeal.S100000x128 ![0, 1] Cert.ReferenceIdeal.Facts₀.bcast_S100000x1_S100000x128_0_1 dis) xw))
      (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant (F := Ideal) Cert.ReferenceIdeal.S_ .f32 0x00000000#32))

/-- The column broadcast along the rows reads, at `(r, k)`, the column at `(r, 0)`. -/
theorem column_broadcast_apply (dis : S100000x1.Idx → EReal) (r : Fin 100000) (k : Fin 128) :
    broadcastInDim Cert.ReferenceIdeal.S100000x128 ![0, 1] Cert.ReferenceIdeal.Facts₀.bcast_S100000x1_S100000x128_0_1 dis (ix2 r k)
      = dis (ix2 r (0 : Fin 1)) :=
  broadcastInDim_apply _ _ dis (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- The row broadcast down the rows reads, at `(r, k)`, the row at `(0, k)`. -/
theorem row_broadcast_apply (b : S1x128.Idx → EReal) (r : Fin 100000) (k : Fin 128) :
    broadcastInDim Cert.ReferenceIdeal.S100000x128 ![0, 1] Cert.ReferenceIdeal.Facts₀.bcast_S1x128_S100000x128_0_1 b (ix2 r k)
      = b (ix2 (0 : Fin 1) k) :=
  broadcastInDim_apply _ _ b (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The scalar zero broadcast to the full shape reads zero's word everywhere. -/
theorem zero_broadcast_apply (i : S100000x128.Idx) :
    broadcastInDim Cert.ReferenceIdeal.S100000x128 ![] Cert.ReferenceIdeal.Facts₀.bcast_S_S100000x128
        (constant (F := Ideal) Cert.ReferenceIdeal.S_ .f32 0x00000000#32) i
      = Ideal.ofBits .f32 0x00000000#32 :=
  broadcastInDim_apply _ _ (constant (F := Ideal) Cert.ReferenceIdeal.S_ .f32 0x00000000#32) i ix0 (fun a => a.elim0)

/-- The whole-array function at `(r, k)`. -/
theorem combined_apply (agg xw : S100000x128.Idx → EReal) (dis : S100000x1.Idx → EReal) (b : S1x128.Idx → EReal)
    (r : Fin 100000) (k : Fin 128) :
    combined agg xw dis b (ix2 r k)
      = max ((agg (ix2 r k) + dis (ix2 r (0 : Fin 1)) * xw (ix2 r k)) + b (ix2 (0 : Fin 1) k)) (Ideal.ofBits .f32 0x00000000#32) := by
  show max ((agg (ix2 r k) + broadcastInDim Cert.ReferenceIdeal.S100000x128 ![0, 1] Cert.ReferenceIdeal.Facts₀.bcast_S100000x1_S100000x128_0_1 dis (ix2 r k) * xw (ix2 r k))
      + broadcastInDim Cert.ReferenceIdeal.S100000x128 ![0, 1] Cert.ReferenceIdeal.Facts₀.bcast_S1x128_S100000x128_0_1 b (ix2 r k))
    (broadcastInDim Cert.ReferenceIdeal.S100000x128 ![] Cert.ReferenceIdeal.Facts₀.bcast_S_S100000x128
        (constant (F := Ideal) Cert.ReferenceIdeal.S_ .f32 0x00000000#32) (ix2 r k)) = _
  rw [column_broadcast_apply, row_broadcast_apply, zero_broadcast_apply]

/-! ## The body's payload at an index -/

/-- A column `[a, 1]` broadcast along the rows to `[a, b]` reads, at `(p, k)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The payload at `(p, k)` of the block: the shape casts are identities, the column is read at `(p, 0)`, the row at
    `(0, k)`, the arithmetic is pointwise. -/
theorem payload_apply (x0 x1 : Vec Ideal S2000x128 .f32) (x2 : Vec Ideal S2000x1 .f32) (x3 : Vec Ideal S1x128 .f32)
    (p : Fin 2000) (k : Fin 128) :
    k1_pay1 x0 x1 x2 x3 (ix2 p k)
      = max ((x0 (ix2 p k) + x2 (ix2 p (0 : Fin 1)) * x1 (ix2 p k)) + x3 (ix2 (0 : Fin 1) k)) (Ideal.ofBits .f32 0x00000000#32) := by
  unfold k1_pay1
  simp only [shapeCast_self]
  show max ((x0 (ix2 p k) + broadcastTo S2000x128 x2 Facts₀.broadcasts_S2000x1_S2000x128 (ix2 p k) * x1 (ix2 p k))
      + broadcastTo S2000x128 x3 Facts₀.broadcasts_S1x128_S2000x128 (ix2 p k)) (Ideal.ofBits .f32 0x00000000#32) = _
  rw [broadcastTo_a1_ab_apply, broadcastTo_1b_ab_apply]

/-- A point of a block and the array index under it: when the two full-width blocks hold the arrays' entries there, the
    column block holds the column's entry of that row and the row block the row's entry of that column, the payload is the
    whole-array function. -/
theorem point_eq (x0 x1 : Vec Ideal S2000x128 .f32) (x2 : Vec Ideal S2000x1 .f32) (x3 : Vec Ideal S1x128 .f32)
    (agg xw : S100000x128.Idx → EReal) (dis : S100000x1.Idx → EReal) (b : S1x128.Idx → EReal)
    (j : S2000x128.Idx) (i : S100000x128.Idx)
    (h0 : x0 j = agg i) (h1 : x1 j = xw i)
    (h2 : ∀ (y : S2000x1.Idx) (i' : S100000x1.Idx), (y 0).val = (j 0).val → (i' 0).val = (i 0).val → x2 y = dis i')
    (h3 : ∀ (y i' : S1x128.Idx), (y 1).val = (j 1).val → (i' 1).val = (i 1).val → x3 y = b i') :
    k1_pay1 x0 x1 x2 x3 j = combined agg xw dis b i := by
  obtain ⟨p, k, rfl⟩ : ∃ (p : Fin 2000) (k : Fin 128), j = ix2 p k := ⟨j 0, j 1, eq_ix2 j⟩
  obtain ⟨r, k', rfl⟩ : ∃ (r : Fin 100000) (k' : Fin 128), i = ix2 r k' := ⟨i 0, i 1, eq_ix2 i⟩
  rw [payload_apply, combined_apply, h0, h1, h2 (ix2 p (0 : Fin 1)) (ix2 r (0 : Fin 1)) rfl rfl,
    h3 (ix2 (0 : Fin 1) k) (ix2 (0 : Fin 1) k') rfl rfl]

/-! ## From the blocks to the array -/

/-- The zero offsets of a whole-buffer access, as a constant function. -/
theorem zero_offsets : (![0, 0] : Fin 2 → Nat) = fun _ => 0 := funext fun a => by fin_cases a <;> rfl

/-- The block indices, decided over the 50 grid points: the three row-blocked inputs and the output are at row block `t`,
    column block 0; the bias row is at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b)) (c : Dev nD)

/-- What point `t` writes back is block `t` of the whole-array function of the four entry arrays. -/
theorem flushed_eq (t : Fin cfg1.N) :
    (dat1 V c).flushed 4 t
      = ((cfg1.win 4).blk t).view.read (Elt Ideal)
          (combined (V c (Pipeline.arrRef spec1 0)) (V c (Pipeline.arrRef spec1 1)) (V c (Pipeline.arrRef spec1 2))
            (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  obtain ⟨a0, a1, b0, b1, d0, d1, e0, e1, o0, o1⟩ := block_indices t
  funext j
  refine point_eq (iblk1 V c 0 t) (iblk1 V c 1 t) (iblk1 V c 2 t) (iblk1 V c 3 t) _ _ _ _
    ((cfg1.win 4).xinj (grid1.coords t) j) (((cfg1.win 4).blk t).view.emb j) ?_ ?_ ?_ ?_
  · -- the aggregate's block at point `t` sits where the output's does
    show V c (Pipeline.arrRef spec1 0) (((cfg1.win 0).blk t).view.emb ((cfg1.win 4).xinj (grid1.coords t) j))
      = V c (Pipeline.arrRef spec1 0) (((cfg1.win 4).blk t).view.emb j)
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  · -- so does the product's
    show V c (Pipeline.arrRef spec1 1) (((cfg1.win 1).blk t).view.emb ((cfg1.win 4).xinj (grid1.coords t) j))
      = V c (Pipeline.arrRef spec1 1) (((cfg1.win 4).blk t).view.emb j)
    refine congrArg _ (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  · -- the column's block holds the same rows, in its one column
    intro y i' hy hi
    have hy' : (y 0).val = (j 0).val := hy
    have hi' : (i' 0).val = win1_4.index t (0 : Fin 2) * 2000 + 1 * (j 0).val := hi
    have hy1 : (y 1).val < 1 := (y 1).isLt
    have hi1 : (i' 1).val < 1 := (i' 1).isLt
    show V c (Pipeline.arrRef spec1 2) (((cfg1.win 2).blk t).view.emb y) = V c (Pipeline.arrRef spec1 2) i'
    refine congrArg _ (funext fun a => Fin.ext ?_)
    match a with
    | ⟨0, _⟩ => show win1_2.index t (0 : Fin 2) * 2000 + 1 * (y 0).val = (i' 0).val; omega
    | ⟨1, _⟩ => show win1_2.index t (1 : Fin 2) * 1 + 1 * (y 1).val = (i' 1).val; omega
  · -- the bias row's block is the whole row at every point
    intro y i' hy hi
    have hy' : (y 1).val = (j 1).val := hy
    have hi' : (i' 1).val = win1_4.index t (1 : Fin 2) * 128 + 1 * (j 1).val := hi
    have hy0 : (y 0).val < 1 := (y 0).isLt
    have hi0 : (i' 0).val < 1 := (i' 0).isLt
    show V c (Pipeline.arrRef spec1 3) (((cfg1.win 3).blk t).view.emb y) = V c (Pipeline.arrRef spec1 3) i'
    refine congrArg _ (funext fun a => Fin.ext ?_)
    match a with
    | ⟨0, _⟩ => show win1_3.index t (0 : Fin 2) * 1 + 1 * (y 0).val = (i' 0).val; omega
    | ⟨1, _⟩ => show win1_3.index t (1 : Fin 2) * 128 + 1 * (y 1).val = (i' 1).val; omega

/-- An index of the output array is in point `t`'s block iff each coordinate is in the block's range on its axis. -/
theorem mem_block (t : Fin cfg1.N) (i : S100000x128.Idx) :
    i ∈ ((cfg1.win 4).blk t).view.set
      ↔ ∀ a : Fin 2, win1_4.index t a * S2000x128.size a ≤ (i a).val
          ∧ (i a).val < win1_4.index t a * S2000x128.size a + S2000x128.size a := by
  show i ∈ ((View.whole main_v43).slice (win1_4.rect t)).set ↔ _
  rw [View.set_slice_whole, Rect.mem_set_unit]
  exact Iff.rfl

/-- The blocks tile the output: row `r` is in the block of point `r / 2000`, and every point writes back. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, Nat.lt_of_lt_of_eq (by omega : (i 0).val / 2000 < 50) N_1.symm⟩, rfl⟩
  obtain ⟨-, -, -, -, -, -, -, -, o0, o1⟩ := block_indices t
  refine ⟨t, flush1_4 t, ?_⟩
  rw [mem_block]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- THE OUTPUT ARRAY after the region: index by index, `max ((agg + dis · xw) + b) 0` of the four arrays the region is
    entered with, written with the host's broadcast operations. -/
theorem combine_first (V : (c : Dev nD) → (b : Ref sig .tc) → Buf (Elt Ideal) ((c : Thread nD τ).loc b)) (c : Dev nD) :
    (Gen.dat1 V c).arrAt 4 cfg1.N
      = maximumf (F := Ideal)
          (addf (addf (V c (Pipeline.arrRef spec1 0))
              (mulf (broadcastInDim Cert.ReferenceIdeal.S100000x128 ![0, 1] Cert.ReferenceIdeal.Facts₀.bcast_S100000x1_S100000x128_0_1 (V c (Pipeline.arrRef spec1 2)))
                    (V c (Pipeline.arrRef spec1 1))))
            (broadcastInDim Cert.ReferenceIdeal.S100000x128 ![0, 1] Cert.ReferenceIdeal.Facts₀.bcast_S1x128_S100000x128_0_1 (V c (Pipeline.arrRef spec1 3))))
          (broadcastInDim Cert.ReferenceIdeal.S100000x128 ![] Cert.ReferenceIdeal.Facts₀.bcast_S_S100000x128 (constant (F := Ideal) Cert.ReferenceIdeal.S_ .f32 0x00000000#32)) :=
  (dat1 V c).arrAt_eq_of_cover 4
    (combined (V c (Pipeline.arrRef spec1 0)) (V c (Pipeline.arrRef spec1 1)) (V c (Pipeline.arrRef spec1 2))
      (V c (Pipeline.arrRef spec1 3)))
    (fun t _ => flushed_eq V c t) covered

end Cert.KernelIdeal.CombineFirst

end
-- ==== Proof.CombineSecond.lean ====
/- The second combine region's whole output array.

   The region's grid has 50 points; point `t` reads rows `2000 t … 2000 t + 1999` of the aggregate `agg` and of the
   product `xw` (both [100000, 64]), the same rows of the column `dis` ([100000, 1]), the whole bias row `b` ([1, 64]), and
   writes rows `2000 t … 2000 t + 1999` of the output. Entry `(r, k)` of what it writes is
   `(agg (r, k) + dis (r, 0) · xw (r, k)) + b (0, k)`: it depends on one entry of each of the four arrays, so the 50
   written blocks are the blocks of ONE function of the four arrays, and they tile the output. That function is stated with
   the host's own broadcast operations; read at an index it is the expression above. -/
import proofs.«133855_j12232066859465_1_alg».proof.Proof.Gen.KernelIdeal.Frame
import proofs.«133855_j12232066859465_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CombineSecond

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function and its entries -/

/-- The output as one function of the four entry arrays: `(agg + dis · xw) + b`, the column `dis` and the row `b` broadcast
    to the full shape. -/
abbrev combined (agg xw : S100000x64.Idx → EReal) (dis : S100000x1.Idx → EReal) (b : S1x64.Idx → EReal) :
    S100000x64.Idx → EReal :=
  addf (F := Ideal) (φ := .f32)
    (addf agg
      (mulf (broadcastInDim Cert.ReferenceIdeal.S100000x64 ![0, 1] Cert.ReferenceIdeal.Facts₀.bcast_S100000x1_S100000x64_0_1 dis) xw))
    (broadcastInDim Cert.ReferenceIdeal.S100000x64 ![0, 1] Cert.ReferenceIdeal.Facts₀.bcast_S1x64_S100000x64_0_1 b)

/-- The column broadcast along the rows reads, at `(r, k)`, the column at `(r, 0)`. -/
theorem column_broadcast_apply (dis : S100000x1.Idx → EReal) (r : Fin 100000) (k : Fin 64) :
    broadcastInDim Cert.ReferenceIdeal.S100000x64 ![0, 1] Cert.ReferenceIdeal.Facts₀.bcast_S100000x1_S100000x64_0_1 dis (ix2 r k)
      = dis (ix2 r (0 : Fin 1)) :=
  broadcastInDim_apply _ _ dis (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- The row broadcast down the rows reads, at `(r, k)`, the row at `(0, k)`. -/
theorem row_broadcast_apply (b : S1x64.Idx → EReal) (r : Fin 100000) (k : Fin 64) :
    broadcastInDim Cert.ReferenceIdeal.S100000x64 ![0, 1] Cert.ReferenceIdeal.Facts₀.bcast_S1x64_S100000x64_0_1 b (ix2 r k)
      = b (ix2 (0 : Fin 1) k) :=
  broadcastInDim_apply _ _ b (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])

/-- The whole-array function at `(r, k)`. -/
theorem combined_apply (agg xw : S100000x64.Idx → EReal) (dis : S100000x1.Idx → EReal) (b : S1x64.Idx → EReal)
    (r : Fin 100000) (k : Fin 64) :
    combined agg xw dis b (ix2 r k)
      = (agg (ix2 r k) + dis (ix2 r (0 : Fin 1)) * xw (ix2 r k)) + b (ix2 (0 : Fin 1) k) := by
  show (agg (ix2 r k) + broadcastInDim Cert.ReferenceIdeal.S100000x64 ![0, 1] Cert.ReferenceIdeal.Facts₀.bcast_S100000x1_S100000x64_0_1 dis (ix2 r k) * xw (ix2 r k))
      + broadcastInDim Cert.ReferenceIdeal.S100000x64 ![0, 1] Cert.ReferenceIdeal.Facts₀.bcast_S1x64_S100000x64_0_1 b (ix2 r k) = _
  rw [column_broadcast_apply, row_broadcast_apply]

/-! ## The body's payload at an index -/

/-- A column `[a, 1]` broadcast along the rows to `[a, b]` reads, at `(p, k)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The payload at `(p, k)` of the block: the shape casts are identities, the column is read at `(p, 0)`, the row at
    `(0, k)`, the arithmetic is pointwise. -/
theorem payload_apply (x0 x1 : Vec Ideal S2000x64 .f32) (x2 : Vec Ideal S2000x1 .f32) (x3 : Vec Ideal S1x64 .f32)
    (p : Fin 2000) (k : Fin 64) :
    k3_pay1 x0 x1 x2 x3 (ix2 p k)
      = (x0 (ix2 p k) + x2 (ix2 p (0 : Fin 1)) * x1 (ix2 p k)) + x3 (ix2 (0 : Fin 1) k) := by
  unfold k3_pay1
  simp only [shapeCast_self]
  show (x0 (ix2 p k) + broadcastTo S2000x64 x2 Facts₀.broadcasts_S2000x1_S2000x64 (ix2 p k) * x1 (ix2 p k))
      + broadcastTo S2000x64 x3 Facts₀.broadcasts_S1x64_S2000x64 (ix2 p k) = _
  rw [broadcastTo_a1_ab_apply, broadcastTo_1b_ab_apply]

/-- A point of a block and the array index under it: when the two full-width blocks hold the arrays' entries there, the
    column block holds the column's entry of that row and the row block the row's entry of that column, the payload is the
    whole-array function. -/
theorem point_eq (x0 x1 : Vec Ideal S2000x64 .f32) (x2 : Vec Ideal S2000x1 .f32) (x3 : Vec Ideal S1x64 .f32)
    (agg xw : S100000x64.Idx → EReal) (dis : S100000x1.Idx → EReal) (b : S1x64.Idx → EReal)
    (j : S2000x64.Idx) (i : S100000x64.Idx)
    (h0 : x0 j = agg i) (h1 : x1 j = xw i)
    (h2 : ∀ (y : S2000x1.Idx) (i' : S100000x1.Idx), (y 0).val = (j 0).val → (i' 0).val = (i 0).val → x2 y = dis i')
    (h3 : ∀ (y i' : S1x64.Idx), (y 1).val = (j 1).val → (i' 1).val = (i 1).val → x3 y = b i') :
    k3_pay1 x0 x1 x2 x3 j = combined agg xw dis b i := by
  obtain ⟨p, k, rfl⟩ : ∃ (p : Fin 2000) (k : Fin 64), j = ix2 p k := ⟨j 0, j 1, eq_ix2 j⟩
  obtain ⟨r, k', rfl⟩ : ∃ (r : Fin 100000) (k' : Fin 64), i = ix2 r k' := ⟨i 0, i 1, eq_ix2 i⟩
  rw [payload_apply, combined_apply, h0, h1, h2 (ix2 p (0 : Fin 1)) (ix2 r (0 : Fin 1)) rfl rfl,
    h3 (ix2 (0 : Fin 1) k) (ix2 (0 : Fin 1) k') rfl rfl]

/-! ## From the blocks to the array -/

/-- The zero offsets of a whole-buffer access, as a constant function. -/
theorem zero_offsets : (![0, 0] : Fin 2 → Nat) = fun _ => 0 := funext fun a => by fin_cases a <;> rfl

/-- The block indices, decided over the 50 grid points: the three row-blocked inputs and the output are at row block `t`,
    column block 0; the bias row is at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- What point `t` writes back is block `t` of the whole-array function of the four entry arrays. -/
theorem flushed_eq (t : Fin cfg3.N) :
    (dat3 V c).flushed 4 t
      = ((cfg3.win 4).blk t).view.read (Elt Ideal)
          (combined (V c (Pipeline.arrRef spec3 0)) (V c (Pipeline.arrRef spec3 1)) (V c (Pipeline.arrRef spec3 2))
            (V c (Pipeline.arrRef spec3 3))) := by
  show (cfg3.win 4).cut (grid3.coords t) ((dat3 V c).after 4 t) = _
  rw [after3_4]
  unfold out3_4
  rw [View.canon_unit_zero zero_offsets]
  simp only [View.ld_unit_zero (S := S2000x64) zero_offsets, View.ld_unit_zero (S := S2000x1) zero_offsets,
    View.ld_unit_zero (S := S1x64) zero_offsets]
  obtain ⟨a0, a1, b0, b1, d0, d1, e0, e1, o0, o1⟩ := block_indices t
  funext j
  refine point_eq (iblk3 V c 0 t) (iblk3 V c 1 t) (iblk3 V c 2 t) (iblk3 V c 3 t) _ _ _ _
    ((cfg3.win 4).xinj (grid3.coords t) j) (((cfg3.win 4).blk t).view.emb j) ?_ ?_ ?_ ?_
  · -- the aggregate's block at point `t` sits where the output's does
    show V c (Pipeline.arrRef spec3 0) (((cfg3.win 0).blk t).view.emb ((cfg3.win 4).xinj (grid3.coords t) j))
      = V c (Pipeline.arrRef spec3 0) (((cfg3.win 4).blk t).view.emb j)
    refine congrArg _ (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  · -- so does the product's
    show V c (Pipeline.arrRef spec3 1) (((cfg3.win 1).blk t).view.emb ((cfg3.win 4).xinj (grid3.coords t) j))
      = V c (Pipeline.arrRef spec3 1) (((cfg3.win 4).blk t).view.emb j)
    refine congrArg _ (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  · -- the column's block holds the same rows, in its one column
    intro y i' hy hi
    have hy' : (y 0).val = (j 0).val := hy
    have hi' : (i' 0).val = win3_4.index t (0 : Fin 2) * 2000 + 1 * (j 0).val := hi
    have hy1 : (y 1).val < 1 := (y 1).isLt
    have hi1 : (i' 1).val < 1 := (i' 1).isLt
    show V c (Pipeline.arrRef spec3 2) (((cfg3.win 2).blk t).view.emb y) = V c (Pipeline.arrRef spec3 2) i'
    refine congrArg _ (funext fun a => Fin.ext ?_)
    match a with
    | ⟨0, _⟩ => show win3_2.index t (0 : Fin 2) * 2000 + 1 * (y 0).val = (i' 0).val; omega
    | ⟨1, _⟩ => show win3_2.index t (1 : Fin 2) * 1 + 1 * (y 1).val = (i' 1).val; omega
  · -- the bias row's block is the whole row at every point
    intro y i' hy hi
    have hy' : (y 1).val = (j 1).val := hy
    have hi' : (i' 1).val = win3_4.index t (1 : Fin 2) * 64 + 1 * (j 1).val := hi
    have hy0 : (y 0).val < 1 := (y 0).isLt
    have hi0 : (i' 0).val < 1 := (i' 0).isLt
    show V c (Pipeline.arrRef spec3 3) (((cfg3.win 3).blk t).view.emb y) = V c (Pipeline.arrRef spec3 3) i'
    refine congrArg _ (funext fun a => Fin.ext ?_)
    match a with
    | ⟨0, _⟩ => show win3_3.index t (0 : Fin 2) * 1 + 1 * (y 0).val = (i' 0).val; omega
    | ⟨1, _⟩ => show win3_3.index t (1 : Fin 2) * 64 + 1 * (y 1).val = (i' 1).val; omega

/-- An index of the output array is in point `t`'s block iff each coordinate is in the block's range on its axis. -/
theorem mem_block (t : Fin cfg3.N) (i : S100000x64.Idx) :
    i ∈ ((cfg3.win 4).blk t).view.set
      ↔ ∀ a : Fin 2, win3_4.index t a * S2000x64.size a ≤ (i a).val
          ∧ (i a).val < win3_4.index t a * S2000x64.size a + S2000x64.size a := by
  show i ∈ ((View.whole main_v59).slice (win3_4.rect t)).set ↔ _
  rw [View.set_slice_whole, Rect.mem_set_unit]
  exact Iff.rfl

/-- The blocks tile the output: row `r` is in the block of point `r / 2000`, and every point writes back. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, Nat.lt_of_lt_of_eq (by omega : (i 0).val / 2000 < 50) N_3.symm⟩, rfl⟩
  obtain ⟨-, -, -, -, -, -, -, -, o0, o1⟩ := block_indices t
  refine ⟨t, flush3_4 t, ?_⟩
  rw [mem_block]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 64 ≤ (i 1).val ∧ (i 1).val < win3_4.index t (1 : Fin 2) * 64 + 64
    omega

/-- THE OUTPUT ARRAY after the region: index by index, `(agg + dis · xw) + b` of the four arrays the region is entered
    with, written with the host's broadcast operations. -/
theorem combine_second (V : (c : Dev nD) → (b : Ref sig .tc) → Buf (Elt Ideal) ((c : Thread nD τ).loc b)) (c : Dev nD) :
    (Gen.dat3 V c).arrAt 4 cfg3.N
      = addf (F := Ideal) (φ := .f32) (addf (V c (Pipeline.arrRef spec3 0))
              (mulf (broadcastInDim Cert.ReferenceIdeal.S100000x64 ![0, 1] Cert.ReferenceIdeal.Facts₀.bcast_S100000x1_S100000x64_0_1 (V c (Pipeline.arrRef spec3 2)))
                    (V c (Pipeline.arrRef spec3 1))))
            (broadcastInDim Cert.ReferenceIdeal.S100000x64 ![0, 1] Cert.ReferenceIdeal.Facts₀.bcast_S1x64_S100000x64_0_1 (V c (Pipeline.arrRef spec3 3))) :=
  (dat3 V c).arrAt_eq_of_cover 4
    (combined (V c (Pipeline.arrRef spec3 0)) (V c (Pipeline.arrRef spec3 1)) (V c (Pipeline.arrRef spec3 2))
      (V c (Pipeline.arrRef spec3 3)))
    (fun t _ => flushed_eq V c t) covered

end Cert.KernelIdeal.CombineSecond

end
-- ==== Proof.lean ====
/-
  A two-layer graph convolution, as a tiled kernel program and as its plain reference, computes one function.

  Both programs take node features x [100000, 128], an edge list (rows, columns) with edge weights w, and two
  layers' weights and biases. Both form the degrees deg = segment-sum of w over the columns, plus one; dis =
  deg^(-1/2); the edge norms dis[row] · w · dis[col]; and per layer, with xw the dense product of the layer's input
  and weights, the aggregation agg = segment-sum over the columns of norm · xw[row], and the layer's output
  (agg + dis² · xw) + b, the first layer followed by the maximum with zero.

  The kernel program computes the two dense products and the two combines in four kernel regions, each over a grid
  of 50 blocks of 2000 rows, rounding the products' operands to a shorter float format on the way in; everything
  indexed by the edges stays host code, the same operations as the reference's. Read on the extended reals, where a
  change of float format is the identity and a product accumulated block by block is the exact sum, each region is
  the host operation it stands for on the whole array (the four modules of the regions), so the program's memory at
  each boundary is the reference's stage of the arguments (the module of the boundaries), and the two results are
  equal array for array. No law of arithmetic is needed beyond reading both sides at an index, so the finiteness of
  the inputs is never used. The idealization rewrote no operation, so the kernel program is its own sanctioned
  idealization.
-/
import proofs.«133855_j12232066859465_1_alg».proof.Defs
import proofs.«133855_j12232066859465_1_alg».proof.Proof.Gen.Kernel
import proofs.«133855_j12232066859465_1_alg».proof.Proof.Gen.Kernel.Frame
import proofs.«133855_j12232066859465_1_alg».proof.Proof.Gen.KernelIdeal
import proofs.«133855_j12232066859465_1_alg».proof.Proof.Gen.KernelIdeal.Frame
import proofs.«133855_j12232066859465_1_alg».proof.Proof.Gen.ReferenceIdeal
import proofs.«133855_j12232066859465_1_alg».proof.Proof.Gen.Pre_finite_inputs
import proofs.«133855_j12232066859465_1_alg».proof.Proof.Gen.ReferenceIdeal.Run
import proofs.«133855_j12232066859465_1_alg».proof.Proof.Gen.ReferenceIdeal.Read
import proofs.«133855_j12232066859465_1_alg».proof.Proof.KernelRun
import proofs.«133855_j12232066859465_1_alg».proof.Proof.Boundaries
import proofs.«133855_j12232066859465_1_alg».proof.Proof.DenseFirst
import proofs.«133855_j12232066859465_1_alg».proof.Proof.DenseSecond
import proofs.«133855_j12232066859465_1_alg».proof.Proof.CombineFirst
import proofs.«133855_j12232066859465_1_alg».proof.Proof.CombineSecond
import Idealize.ShloMosaic.Adequacy
import Idealize.ShloMosaic.Init

noncomputable section

namespace Cert.Proof

open Idealize.ShloMosaic Idealize.SL.Sem

/-- The four regions' whole output arrays, each as the host operation of the arrays the region is entered with. -/
theorem regions : Cert.KernelIdeal.Boundary.RegionValues :=
  ⟨Cert.KernelIdeal.DenseFirst.dense_first, Cert.KernelIdeal.CombineFirst.combine_first,
    Cert.KernelIdeal.DenseSecond.dense_second, Cert.KernelIdeal.CombineSecond.combine_second⟩

/-- The word-level kernel program runs to its end without a fault and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a line of host operations: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: there is nothing to preserve. -/
theorem preserves : Cert.preserves_Kernel_KernelIdeal := trivial

/-- From memories agreeing on the seven arguments both programs end with the reference's last stage of those
    arguments in their result buffers: the kernel program by its run through the seven boundaries, the reference
    by its run read back stage by stage. -/
theorem algebraic : Cert.algebraic_KernelIdeal_ReferenceIdeal := by
  intro m ρ m' ρ' _ hagree
  refine ⟨fun c => Cert.ReferenceIdeal.Read.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Boundary.seventh_out m ρ c regions), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v92_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
